-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S100000x64 : Shape := ⟨2, ![100000, 64]⟩
abbrev S1000000 : Shape := ⟨1, ![1000000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128x64 .f32) (main_arg7 : FVec F S128x64 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S1000000x64 .f32) (main_arg1 : FVec F S100000x64 .f32) (main_arg2 : FVec F S100000x64 .f32) (main_arg3 : IVec S1000000 32) (main_arg4 : IVec S1000000 32) (main_arg5 : FVec F S128x64 .f32) (main_arg6 : FVec F S128x64 .f32) (main_arg7 : FVec F S128x64 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S1000000x64 : Shape := ⟨2, ![1000000, 64]⟩
abbrev S100000x64 : Shape := ⟨2, ![100000, 64]⟩
abbrev S1000000 : Shape := ⟨1, ![1000000]⟩
abbrev S128x64 : Shape := ⟨2, ![128, 64]⟩
abbrev S128 : Shape := ⟨1, ![128]⟩
abbrev S128x128 : Shape := ⟨2, ![128, 128]⟩
abbrev S_ : Shape := ⟨0, ![]⟩
abbrev S1000000x1 : Shape := ⟨2, ![1000000, 1]⟩
abbrev S64x128 : Shape := ⟨2, ![64, 128]⟩
abbrev S1000000x128 : Shape := ⟨2, ![1000000, 128]⟩
abbrev S20000x64 : Shape := ⟨2, ![20000, 64]⟩
abbrev S20000x128 : Shape := ⟨2, ![20000, 128]⟩
abbrev S1x128 : Shape := ⟨2, ![1, 128]⟩
abbrev S20000 : Shape := ⟨1, ![20000]⟩
abbrev S20000x1 : Shape := ⟨2, ![20000, 1]⟩

abbrev nBuf : Space → Nat
  | .hbm => 42
  | .vmem => 16
  | .smem => 0
  | _ => 0

abbrev bufTy : (tb : Table) → Fin (tcTables nBuf tb) → BufTy
  | .hbm, ⟨0, _⟩ => ⟨S1000000x64, .f32⟩
  | .hbm, ⟨1, _⟩ => ⟨S100000x64, .f32⟩
  | .hbm, ⟨2, _⟩ => ⟨S100000x64, .f32⟩
  | .hbm, ⟨3, _⟩ => ⟨S1000000, .i32⟩
  | .hbm, ⟨4, _⟩ => ⟨S1000000, .i32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S100000x64, .bf16⟩
  | .hbm, ⟨14, _⟩ => ⟨S100000x64, .bf16⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .bf16⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .bf16⟩
  | .hbm, ⟨33, _⟩ => ⟨S64x128, .f32⟩
  | .hbm, ⟨34, _⟩ => ⟨S64x128, .bf16⟩
  | .hbm, ⟨35, _⟩ => ⟨S64x128, .f32⟩
  | .hbm, ⟨36, _⟩ => ⟨S64x128, .bf16⟩
  | .hbm, ⟨37, _⟩ => ⟨S64x128, .f32⟩
  | .hbm, ⟨38, _⟩ => ⟨S64x128, .bf16⟩
  | .hbm, ⟨39, _⟩ => ⟨S128x128, .f32⟩
  | .hbm, ⟨40, _⟩ => ⟨S128x128, .bf16⟩
  | .hbm, ⟨41, _⟩ => ⟨S1000000x128, .f32⟩
  | .local _ .vmem, ⟨0, _⟩ => ⟨S20000x64, .f32⟩
  | .local _ .vmem, ⟨1, _⟩ => ⟨S20000x64, .f32⟩
  | .local _ .vmem, ⟨2, _⟩ => ⟨S20000x64, .bf16⟩
  | .local _ .vmem, ⟨3, _⟩ => ⟨S20000x64, .bf16⟩
  | .local _ .vmem, ⟨4, _⟩ => ⟨S20000x64, .bf16⟩
  | .local _ .vmem, ⟨5, _⟩ => ⟨S20000x64, .bf16⟩
  | .local _ .vmem, ⟨6, _⟩ => ⟨S64x128, .bf16⟩
  | .local _ .vmem, ⟨7, _⟩ => ⟨S64x128, .bf16⟩
  | .local _ .vmem, ⟨8, _⟩ => ⟨S64x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S20000x128, .f32⟩
  | .local _ .vmem, ⟨15, _⟩ => ⟨S20000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S20000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x64_S64x128_1_0 : S128x64.Transposes [1, 0] S64x128
  transposes_S128x128_S128x128_1_0 : S128x128.Transposes [1, 0] S128x128
  inb_S20000x64_S20000x64_0_0 : ∀ a, (![0, 0] : Fin 2 → Nat) a + S20000x64.size a ≤ S20000x64.size a
  h_S20000x64 : 0 < S20000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S20000x64_S20000x64 : S20000x64.ShapeCasts S20000x64
  inb_S128_S128_0 : ∀ a, (![0] : Fin 1 → Nat) a + S128.size a ≤ S128.size a
  h_S128 : 0 < S128.numel
  shapeCasts_S128_S1x128 : S128.ShapeCasts S1x128
  broadcasts_S1x128_S20000x128 : S1x128.Broadcasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S20000x128_S20000 : S20000x128.Reduces [1] S20000
  shapeCasts_S20000_S20000x1 : S20000.ShapeCasts S20000x1
  broadcasts_S20000x1_S20000x128 : S20000x1.Broadcasts S20000x128
  inb_S20000x128_S20000x128_0_0 : ∀ a, (![0, 0] : Fin 2 → Nat) a + S20000x128.size a ≤ S20000x128.size a
  h_S20000x128 : 0 < S20000x128.numel
  gather_S100000x64_S1000000x1_S1000000x64_1_0_n_n_0_1_164_wf : GatherDims.WF S100000x64 S1000000x1 S1000000x64 [1] [0] [] [0] [] 1 ![1, 64]
  dot_S20000x64_S64x128_S20000x128_1_0_0_1_n_n_wf : DotDims.WF S20000x64 S64x128 S20000x128 [1] [0] [0] [1] [] []
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S1000000x64.size a
  hwx0_1 : ∀ i : grid0.Coords, EltTy.bits .bf16 = 32 ∨ (Rect.block (s := S1000000x64) S20000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S1000000x64.size a
  hwx0_2 : ∀ i : grid0.Coords, EltTy.bits .bf16 = 32 ∨ (Rect.block (s := S1000000x64) S20000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S20000x128.size a ≤ S1000000x128.size a
  hwx0_11 : ∀ i : grid0.Coords, EltTy.bits .f32 = 32 ∨ (Rect.block (s := S1000000x128) S20000x128.size (cc0_transform_11 i) (hinb0_11 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S20000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S20000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S100000x64 : Shape := ⟨2, ![100000, 64]⟩
abbrev S1000000 : Shape := ⟨1, ![1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S1000000x128 : Shape := ⟨2, ![1000000, 128]⟩
abbrev S100000x128 : Shape := ⟨2, ![100000, 128]⟩
abbrev S1x128 : Shape := ⟨2, ![1, 128]⟩
abbrev S_ : Shape := ⟨0, ![]⟩
abbrev S1000000x1 : Shape := ⟨2, ![1000000, 1]⟩

abbrev nBuf : Space → Nat
  | .hbm => 85
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S100000x64, .f32⟩
  | .hbm, ⟨2, _⟩ => ⟨S100000x64, .f32⟩
  | .hbm, ⟨3, _⟩ => ⟨S1000000, .i32⟩
  | .hbm, ⟨4, _⟩ => ⟨S1000000, .i32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S64x128, .f32⟩
  | .hbm, ⟨14, _⟩ => ⟨S1000000x128, .f32⟩
  | .hbm, ⟨15, _⟩ => ⟨S64x128, .f32⟩
  | .hbm, ⟨16, _⟩ => ⟨S100000x128, .f32⟩
  | .hbm, ⟨17, _⟩ => ⟨S64x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .f32⟩
  | .hbm, ⟨31, _⟩ => ⟨S1000000x128, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x128, .f32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S1000000x128, .f32⟩
  | .hbm, ⟨49, _⟩ => ⟨S1000000x128, .f32⟩
  | .hbm, ⟨50, _⟩ => ⟨S1000000x128, .f32⟩
  | .hbm, ⟨51, _⟩ => ⟨S128x128, .f32⟩
  | .hbm, ⟨52, _⟩ => ⟨S1000000x128, .f32⟩
  | .hbm, ⟨53, _⟩ => ⟨S1x128, .f32⟩
  | .hbm, ⟨54, _⟩ => ⟨S1000000x128, .f32⟩
  | .hbm, ⟨55, _⟩ => ⟨S1000000x128, .f32⟩
  | .hbm, ⟨56, _⟩ => ⟨S_, .f32⟩
  | .hbm, ⟨57, _⟩ => ⟨S1000000, .f32⟩
  | .hbm, ⟨58, _⟩ => ⟨S1000000x1, .f32⟩
  | .hbm, ⟨59, _⟩ => ⟨S_, .f32⟩
  | .hbm, ⟨60, _⟩ => ⟨S1000000x1, .f32⟩
  | .hbm, ⟨61, _⟩ => ⟨S1000000x1, .f32⟩
  | .hbm, ⟨62, _⟩ => ⟨S1000000x128, .f32⟩
  | .hbm, ⟨63, _⟩ => ⟨S1000000x128, .f32⟩
  | .hbm, ⟨64, _⟩ => ⟨S1000000x128, .f32⟩
  | .hbm, ⟨65, _⟩ => ⟨S_, .f32⟩
  | .hbm, ⟨66, _⟩ => ⟨S1000000, .f32⟩
  | .hbm, ⟨67, _⟩ => ⟨S1000000x1, .f32⟩
  | .hbm, ⟨68, _⟩ => ⟨S_, .f32⟩
  | .hbm, ⟨69, _⟩ => ⟨S1000000x1, .f32⟩
  | .hbm, ⟨70, _⟩ => ⟨S1000000x1, .f32⟩
  | .hbm, ⟨71, _⟩ => ⟨S1000000x128, .f32⟩
  | .hbm, ⟨72, _⟩ => ⟨S1000000x128, .f32⟩
  | .hbm, ⟨73, _⟩ => ⟨S_, .f32⟩
  | .hbm, ⟨74, _⟩ => ⟨S1000000x1, .f32⟩
  | .hbm, ⟨75, _⟩ => ⟨S1000000x1, .f32⟩
  | .hbm, ⟨76, _⟩ => ⟨S1000000x1, .f32⟩
  | .hbm, ⟨77, _⟩ => ⟨S1000000x128, .f32⟩
  | .hbm, ⟨78, _⟩ => ⟨S1000000x128, .f32⟩
  | .hbm, ⟨79, _⟩ => ⟨S1x128, .f32⟩
  | .hbm, ⟨80, _⟩ => ⟨S1000000x128, .f32⟩
  | .hbm, ⟨81, _⟩ => ⟨S1000000x128, .f32⟩
  | .hbm, ⟨82, _⟩ => ⟨S1x128, .f32⟩
  | .hbm, ⟨83, _⟩ => ⟨S1000000x128, .f32⟩
  | .hbm, ⟨84, _⟩ => ⟨S1000000x128, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  transposes_S128x128_S128x128_1_0 : S128x128.Transposes [1, 0] S128x128
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  dot_S1000000x64_S64x128_S1000000x128_1_0_0_1_n_n_wf : DotDims.WF S1000000x64 S64x128 S1000000x128 [1] [0] [0] [1] [] []
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  dot_S1000000x128_S128x128_S1000000x128_1_0_0_1_n_n_wf : DotDims.WF S1000000x128 S128x128 S1000000x128 [1] [0] [0] [1] [] []

variable [Facts₀]

def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf

class Facts : Prop extends Facts₀ where

variable [Facts]
-- ==== Proof.Spec.lean ====
/-
  The edge network as one function of the argument arrays, entry by entry, over the extended reals.

  For edge e (of 1,000,000) and output feature j (of 128):

    h(e, k)  = (Σ_q efeat(e, q)·W_e(k, q) + Σ_q src(s(e), q)·W_s(k, q)) + (Σ_q dst(d(e), q)·W_d(k, q) + b₁(k))
    a(e, k)  = h(e, k) · logistic(h(e, k))
    o(e, j)  = Σ_k a(e, k)·W_o(j, k) + b_o(j)
    out(e, j) = (o(e, j) − μ(e)) · rsqrt(σ²(e) + ε) · γ(j) + β(j),
       μ(e) = (Σ_j o(e, j)) / 128,   σ²(e) = (Σ_j (o(e, j) − μ(e))²) / 128,

  where s(e), d(e) are the rows of the two node tables that edge e reads: the entry of a column of 32-bit start
  indices, read as a signed integer and clamped into [0, 99999]. The column is a parameter here: whatever
  normalisation of the raw index vectors produced it is carried along unopened.

  The row-level pieces (hidden row, projection, layer normalisation) are stated over plain functions of Fin 64 / Fin 128,
  so that a block of 20,000 edges and the whole array of 1,000,000 edges read the same definitions.
-/
import Idealize.ShloMosaic.PureOps.Ideal
import Idealize.ShloMosaic.Lib.ValueIdx

noncomputable section

open scoped BigOperators

namespace Cert.EdgeNet

open Idealize.ShloMosaic Idealize.ShloMosaic.ValueIdx

/-- x · logistic(x). -/
def silu (x : EReal) : EReal := x * Ideal.logistic x

/-- The divisor 128 as the programs spell it. -/
def c128 : EReal := Ideal.ofBits .f32 0x43000000#32
/-- The layer normalisation's ε as the programs spell it (the f32 nearest 1e-5). -/
def eps : EReal := Ideal.ofBits .f32 0x3727C5AC#32

/-- The word of 1.0 denotes 1 (the host's expansion of the logistic function spells its two ones by this word). -/
theorem ofBits_one : Ideal.ofBits .f32 0x3F800000#32 = 1 := by
  simp [Ideal.ofBits, Ideal.ieee, -EReal.coe_mul]; norm_num

/-- The hidden row of one edge before the activation: three 64-term dot products and the bias, grouped
    (edge + source) + (destination + bias). -/
def hidRow (xe xs xd : Fin 64 → EReal) (wE wS wD : Fin 128 → Fin 64 → EReal) (b1 : Fin 128 → EReal) (k : Fin 128) : EReal :=
  ((∑ q : Fin 64, xe q * wE k q) + (∑ q : Fin 64, xs q * wS k q)) + ((∑ q : Fin 64, xd q * wD k q) + b1 k)

/-- The output projection of an activated row. -/
def projRow (a : Fin 128 → EReal) (wO : Fin 128 → Fin 128 → EReal) (bO : Fin 128 → EReal) (j : Fin 128) : EReal :=
  (∑ k : Fin 128, a k * wO j k) + bO j

/-- A row's mean. -/
def rowMean (o : Fin 128 → EReal) : EReal := Ideal.div (∑ j : Fin 128, o j) c128

/-- A row's (biased) variance. -/
def rowVar (o : Fin 128 → EReal) : EReal :=
  Ideal.div (∑ j : Fin 128, (o j - rowMean o) * (o j - rowMean o)) c128

/-- Layer normalisation of a row at feature j, with that feature's scale g and shift b. -/
def layerNorm (o : Fin 128 → EReal) (g b : EReal) (j : Fin 128) : EReal :=
  (o j - rowMean o) * Ideal.rsqrt (rowVar o + eps) * g + b

/-- One edge's output entry from its three feature rows. -/
def edgeRowOut (xe xs xd : Fin 64 → EReal) (wE wS wD : Fin 128 → Fin 64 → EReal) (b1 : Fin 128 → EReal)
    (wO : Fin 128 → Fin 128 → EReal) (bO g bt : Fin 128 → EReal) (j : Fin 128) : EReal :=
  layerNorm (projRow (fun k => silu (hidRow xe xs xd wE wS wD b1 k)) wO bO) (g j) (bt j) j

/-- The node-table row that edge e reads through a column of start indices: signed, clamped into [0, 99999]. -/
def nodeRow (col : IVec ⟨2, ![1000000, 1]⟩ 32) (e : Fin 1000000) : Fin 100000 :=
  ⟨min (col (ix2 e (⟨0, Nat.one_pos⟩ : Fin 1))).toInt.toNat (100000 - 1), by omega⟩

/-- The output entry (e, j) from the argument arrays and the two start-index columns. -/
def outAt (ef : FVec Ideal ⟨2, ![1000000, 64]⟩ .f32) (sf df : FVec Ideal ⟨2, ![100000, 64]⟩ .f32)
    (sCol dCol : IVec ⟨2, ![1000000, 1]⟩ 32)
    (wE wS wD : FVec Ideal ⟨2, ![128, 64]⟩ .f32) (b1 : FVec Ideal ⟨1, ![128]⟩ .f32)
    (wO : FVec Ideal ⟨2, ![128, 128]⟩ .f32) (bO g bt : FVec Ideal ⟨1, ![128]⟩ .f32)
    (e : Fin 1000000) (j : Fin 128) : EReal :=
  edgeRowOut (fun q => ef (ix2 e q)) (fun q => sf (ix2 (nodeRow sCol e) q)) (fun q => df (ix2 (nodeRow dCol e) q))
    (fun k q => wE (ix2 k q)) (fun k q => wS (ix2 k q)) (fun k q => wD (ix2 k q)) (fun k => b1 (ix1 k))
    (fun j' k => wO (ix2 j' k)) (fun j' => bO (ix1 j')) (fun j' => g (ix1 j')) (fun j' => bt (ix1 j')) j

/-- The whole output array. -/
def out (ef : FVec Ideal ⟨2, ![1000000, 64]⟩ .f32) (sf df : FVec Ideal ⟨2, ![100000, 64]⟩ .f32)
    (sCol dCol : IVec ⟨2, ![1000000, 1]⟩ 32)
    (wE wS wD : FVec Ideal ⟨2, ![128, 64]⟩ .f32) (b1 : FVec Ideal ⟨1, ![128]⟩ .f32)
    (wO : FVec Ideal ⟨2, ![128, 128]⟩ .f32) (bO g bt : FVec Ideal ⟨1, ![128]⟩ .f32) :
    FVec Ideal ⟨2, ![1000000, 128]⟩ .f32 :=
  fun i => outAt ef sf df sCol dCol wE wS wD b1 wO bO g bt ⟨(i 0).val, (i 0).isLt⟩ ⟨(i 1).val, (i 1).isLt⟩

theorem out_apply (ef : FVec Ideal ⟨2, ![1000000, 64]⟩ .f32) (sf df : FVec Ideal ⟨2, ![100000, 64]⟩ .f32)
    (sCol dCol : IVec ⟨2, ![1000000, 1]⟩ 32)
    (wE wS wD : FVec Ideal ⟨2, ![128, 64]⟩ .f32) (b1 : FVec Ideal ⟨1, ![128]⟩ .f32)
    (wO : FVec Ideal ⟨2, ![128, 128]⟩ .f32) (bO g bt : FVec Ideal ⟨1, ![128]⟩ .f32) (e : Fin 1000000) (j : Fin 128) :
    out ef sf df sCol dCol wE wS wD b1 wO bO g bt (ix2 e j) = outAt ef sf df sCol dCol wE wS wD b1 wO bO g bt e j := rfl

end Cert.EdgeNet

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.KernelHost.lean ====
/-
  What the region finds in the arrays its windows stage, as functions of the argument arrays.

  Before the kernel is launched the host side prepares six arrays. Two are row gathers: the source (destination) node
  table, narrowed to bf16 — the identity on extended reals —, read at the rows named by the edge's source (destination)
  index; the index vector is first normalised (a negative index wraps by the table's 100000 rows) and viewed as a
  column of start indices, and the gather reads each start index signed and clamped into the table. Four are the weight
  matrices transposed and narrowed: entry (q, k) of the transposed matrix is entry (k, q) of the weight.
-/
import proofs.«162868_j14027363189339_2_alg».proof.Proof.Gen.KernelIdeal.Frame
import proofs.«162868_j14027363189339_2_alg».proof.Proof.Spec
import proofs.«162868_j14027363189339_2_alg».proof.Proof.LibHostGather
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelHost

open Cert.KernelIdeal Cert.KernelIdeal.Gen

variable (m : (ℓ : Loc nD τ sig) → Buf (Elt Ideal) ℓ)

/-- The column of start indices made of a raw index vector: a negative index wraps by the table's 100000 rows, and
    the vector is viewed as a column. -/
def col (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- The gathered source rows, as the host operations compose them. -/
theorem V_v8 (c : Dev nD) :
    @Eq (S1000000x64.Idx → EReal) (V m c main_v8)
      (Host.gather gather_S100000x64_S1000000x1_S1000000x64_1_0_n_n_0_1_164
          (truncf (F := Ideal) .bf16 (m ((c : Thread nD τ).loc main_arg1) : FVec Ideal S100000x64 .f32) bitsLt_bf16_f32)
          (col (m ((c : Thread nD τ).loc main_arg3)))) := by
  dsimp only [Gen.V, Gen.hostOps0]
  after_results <;> rfl

/-- Row e of the gathered array is the table's row that edge e names. -/
theorem V_v8_apply (c : Dev nD) (e : Fin 1000000) (q : Fin 64) :
    (V m c main_v8 : S1000000x64.Idx → EReal) (ix2 e q)
      = (m ((c : Thread nD τ).loc main_arg1) : FVec Ideal S100000x64 .f32)
          (ix2 (Cert.EdgeNet.nodeRow (col (m ((c : Thread nD τ).loc main_arg3))) e) q) := by
  rw [V_v8]
  show Host.gather (Cert.HostInt.rowGatherDims 100000 64 1000000 _) _ _ (ix2 e q) = _
  rw [Cert.HostInt.gather_rows_apply (by decide)]
  rfl

/-- The gathered destination rows, as the host operations compose them. -/
theorem V_v15 (c : Dev nD) :
    @Eq (S1000000x64.Idx → EReal) (V m c main_v15)
      (Host.gather gather_S100000x64_S1000000x1_S1000000x64_1_0_n_n_0_1_164
          (truncf (F := Ideal) .bf16 (m ((c : Thread nD τ).loc main_arg2) : FVec Ideal S100000x64 .f32) bitsLt_bf16_f32)
          (col (m ((c : Thread nD τ).loc main_arg4)))) := by
  dsimp only [Gen.V, Gen.hostOps0]
  after_results <;> rfl

/-- Row e of the gathered array is the table's row that edge e names. -/
theorem V_v15_apply (c : Dev nD) (e : Fin 1000000) (q : Fin 64) :
    (V m c main_v15 : S1000000x64.Idx → EReal) (ix2 e q)
      = (m ((c : Thread nD τ).loc main_arg2) : FVec Ideal S100000x64 .f32)
          (ix2 (Cert.EdgeNet.nodeRow (col (m ((c : Thread nD τ).loc main_arg4))) e) q) := by
  rw [V_v15]
  show Host.gather (Cert.HostInt.rowGatherDims 100000 64 1000000 _) _ _ (ix2 e q) = _
  rw [Cert.HostInt.gather_rows_apply (by decide)]
  rfl

/-- A weight matrix transposed and narrowed, as the host operations compose it. -/
theorem V_v17 (c : Dev nD) :
    @Eq (S64x128.Idx → EReal) (V m c main_v17)
      (truncf (F := Ideal) .bf16 (transpose S64x128 [1, 0] (m ((c : Thread nD τ).loc main_arg5) : FVec Ideal S128x64 .f32) transposes_S128x64_S64x128_1_0) bitsLt_bf16_f32) := by
  dsimp only [Gen.V, Gen.hostOps0]
  after_results <;> rfl

/-- Its entry (q, k) is the weight's entry (k, q). -/
theorem V_v17_apply (c : Dev nD) (q : Fin 64) (k : Fin 128) :
    (V m c main_v17 : S64x128.Idx → EReal) (ix2 q k)
      = (m ((c : Thread nD τ).loc main_arg5) : FVec Ideal S128x64 .f32) (ix2 k q) := by
  rw [V_v17]
  show transpose S64x128 [1, 0] (m ((c : Thread nD τ).loc main_arg5) : FVec Ideal S128x64 .f32) transposes_S128x64_S64x128_1_0 (ix2 q k) = _
  exact transpose_apply [1, 0] _ transposes_S128x64_S64x128_1_0 (ix2 q k) (ix2 k q) (fun b => match b with
    | ⟨0, _⟩ => rfl
    | ⟨1, _⟩ => rfl)

/-- A weight matrix transposed and narrowed, as the host operations compose it. -/
theorem V_v19 (c : Dev nD) :
    @Eq (S64x128.Idx → EReal) (V m c main_v19)
      (truncf (F := Ideal) .bf16 (transpose S64x128 [1, 0] (m ((c : Thread nD τ).loc main_arg6) : FVec Ideal S128x64 .f32) transposes_S128x64_S64x128_1_0) bitsLt_bf16_f32) := by
  dsimp only [Gen.V, Gen.hostOps0]
  after_results <;> rfl

/-- Its entry (q, k) is the weight's entry (k, q). -/
theorem V_v19_apply (c : Dev nD) (q : Fin 64) (k : Fin 128) :
    (V m c main_v19 : S64x128.Idx → EReal) (ix2 q k)
      = (m ((c : Thread nD τ).loc main_arg6) : FVec Ideal S128x64 .f32) (ix2 k q) := by
  rw [V_v19]
  show transpose S64x128 [1, 0] (m ((c : Thread nD τ).loc main_arg6) : FVec Ideal S128x64 .f32) transposes_S128x64_S64x128_1_0 (ix2 q k) = _
  exact transpose_apply [1, 0] _ transposes_S128x64_S64x128_1_0 (ix2 q k) (ix2 k q) (fun b => match b with
    | ⟨0, _⟩ => rfl
    | ⟨1, _⟩ => rfl)

/-- A weight matrix transposed and narrowed, as the host operations compose it. -/
theorem V_v21 (c : Dev nD) :
    @Eq (S64x128.Idx → EReal) (V m c main_v21)
      (truncf (F := Ideal) .bf16 (transpose S64x128 [1, 0] (m ((c : Thread nD τ).loc main_arg7) : FVec Ideal S128x64 .f32) transposes_S128x64_S64x128_1_0) bitsLt_bf16_f32) := by
  dsimp only [Gen.V, Gen.hostOps0]
  after_results <;> rfl

/-- Its entry (q, k) is the weight's entry (k, q). -/
theorem V_v21_apply (c : Dev nD) (q : Fin 64) (k : Fin 128) :
    (V m c main_v21 : S64x128.Idx → EReal) (ix2 q k)
      = (m ((c : Thread nD τ).loc main_arg7) : FVec Ideal S128x64 .f32) (ix2 k q) := by
  rw [V_v21]
  show transpose S64x128 [1, 0] (m ((c : Thread nD τ).loc main_arg7) : FVec Ideal S128x64 .f32) transposes_S128x64_S64x128_1_0 (ix2 q k) = _
  exact transpose_apply [1, 0] _ transposes_S128x64_S64x128_1_0 (ix2 q k) (ix2 k q) (fun b => match b with
    | ⟨0, _⟩ => rfl
    | ⟨1, _⟩ => rfl)

/-- A weight matrix transposed and narrowed, as the host operations compose it. -/
theorem V_v23 (c : Dev nD) :
    @Eq (S128x128.Idx → EReal) (V m c main_v23)
      (truncf (F := Ideal) .bf16 (transpose S128x128 [1, 0] (m ((c : Thread nD τ).loc main_arg9) : FVec Ideal S128x128 .f32) transposes_S128x128_S128x128_1_0) bitsLt_bf16_f32) := by
  dsimp only [Gen.V, Gen.hostOps0]
  after_results <;> rfl

/-- Its entry (q, k) is the weight's entry (k, q). -/
theorem V_v23_apply (c : Dev nD) (q : Fin 128) (k : Fin 128) :
    (V m c main_v23 : S128x128.Idx → EReal) (ix2 q k)
      = (m ((c : Thread nD τ).loc main_arg9) : FVec Ideal S128x128 .f32) (ix2 k q) := by
  rw [V_v23]
  show transpose S128x128 [1, 0] (m ((c : Thread nD τ).loc main_arg9) : FVec Ideal S128x128 .f32) transposes_S128x128_S128x128_1_0 (ix2 q k) = _
  exact transpose_apply [1, 0] _ transposes_S128x128_S128x128_1_0 (ix2 q k) (ix2 k q) (fun b => match b with
    | ⟨0, _⟩ => rfl
    | ⟨1, _⟩ => rfl)

end Cert.KernelHost

end
-- ==== Proof.KernelBlocks.lean ====
/-
  Each window's block at a grid point, as entries of the argument arrays.

  The grid has 50 points; at point t the edge-feature window, the two gathered-row windows and the output window hold
  rows 20000·t … 20000·t + 19999 of their arrays (all columns), and every other window — the four weight matrices and
  the four 128-vectors — holds its whole array at every point. An element (r, q) of a block therefore sits at
  (20000·t + r, q) of the array, or at (r, q) itself for the whole-array windows. Combined with what the host side put
  into the staged arrays, every load of the body is an entry of an argument array.
-/
import proofs.«162868_j14027363189339_2_alg».proof.Proof.Gen.KernelIdeal.Frame
import proofs.«162868_j14027363189339_2_alg».proof.Proof.Spec
import proofs.«162868_j14027363189339_2_alg».proof.Proof.KernelHost
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelBlocks

open Cert.KernelIdeal Cert.KernelIdeal.Gen Cert.KernelHost

variable (m : (ℓ : Loc nD τ sig) → Buf (Elt Ideal) ℓ)

/-- The printed index maps, decided over the 50 grid points: the three edge windows and the output move with the point
    along the rows, every other window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 1) = 0
    ∧ win0_11.index t (0 : Fin 2) = t.val ∧ win0_11.index t (1 : Fin 2) = 0 :=
  (by decide +kernel : ∀ t : Fin grid0.N, _)

/-- The edge-feature block at point t: row r of the block is row 20000·t + r of the argument. -/
theorem iblk0_apply (c : Dev nD) (t : Fin cfg0.N) (r : Fin 20000) (q : Fin 64) (e : Fin 1000000)
    (he : e.val = t.val * 20000 + r.val) :
    (iblk m c 0 t : Vec Ideal S20000x64 .f32) (ix2 r q)
      = (m ((c : Thread nD τ).loc main_arg0) : FVec Ideal S1000000x64 .f32) (ix2 e q) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 20000 + 1 * r.val = e.val; rw [h0, he]; omega
  | ⟨1, _⟩ => show win0_0.index t (1 : Fin 2) * 64 + 1 * q.val = q.val; rw [h1]; omega

/-- The gathered source block at point t: row r of the block is the source table's row that edge 20000·t + r names. -/
theorem iblk1_apply (c : Dev nD) (t : Fin cfg0.N) (r : Fin 20000) (q : Fin 64) (e : Fin 1000000)
    (he : e.val = t.val * 20000 + r.val) :
    (iblk m c 1 t : Vec Ideal S20000x64 .bf16) (ix2 r q)
      = (m ((c : Thread nD τ).loc main_arg1) : FVec Ideal S100000x64 .f32)
          (ix2 (Cert.EdgeNet.nodeRow (col (m ((c : Thread nD τ).loc main_arg3))) e) q) := by
  obtain ⟨h0, h1, h2, h3, h4, h5, -⟩ := idx_facts t
  unfold iblk
  rw [View.read_apply]
  show (V m c main_v8 : S1000000x64.Idx → EReal) _ = _
  have hemb : ((cfg0.win 1).blk t).view.emb (ix2 r q) = (ix2 e q : S1000000x64.Idx) := by
    refine funext fun a => Fin.ext ?_
    match a with
    | ⟨0, _⟩ => show win0_1.index t (0 : Fin 2) * 20000 + 1 * r.val = e.val; rw [h2, he]; omega
    | ⟨1, _⟩ => show win0_1.index t (1 : Fin 2) * 64 + 1 * q.val = q.val; rw [h3]; omega
  rw [hemb]
  exact V_v8_apply m c e q

/-- The gathered destination block at point t: row r of the block is the destination table's row that edge 20000·t + r names. -/
theorem iblk2_apply (c : Dev nD) (t : Fin cfg0.N) (r : Fin 20000) (q : Fin 64) (e : Fin 1000000)
    (he : e.val = t.val * 20000 + r.val) :
    (iblk m c 2 t : Vec Ideal S20000x64 .bf16) (ix2 r q)
      = (m ((c : Thread nD τ).loc main_arg2) : FVec Ideal S100000x64 .f32)
          (ix2 (Cert.EdgeNet.nodeRow (col (m ((c : Thread nD τ).loc main_arg4))) e) q) := by
  obtain ⟨h0, h1, h2, h3, h4, h5, -⟩ := idx_facts t
  unfold iblk
  rw [View.read_apply]
  show (V m c main_v15 : S1000000x64.Idx → EReal) _ = _
  have hemb : ((cfg0.win 2).blk t).view.emb (ix2 r q) = (ix2 e q : S1000000x64.Idx) := by
    refine funext fun a => Fin.ext ?_
    match a with
    | ⟨0, _⟩ => show win0_2.index t (0 : Fin 2) * 20000 + 1 * r.val = e.val; rw [h4, he]; omega
    | ⟨1, _⟩ => show win0_2.index t (1 : Fin 2) * 64 + 1 * q.val = q.val; rw [h5]; omega
  rw [hemb]
  exact V_v15_apply m c e q

/-- Window 3 holds its whole array at every point: entry (q, k) is the weight's entry (k, q). -/
theorem iblk3_apply (c : Dev nD) (t : Fin cfg0.N) (q : Fin 64) (k : Fin 128) :
    (iblk m c 3 t : Vec Ideal S64x128 .bf16) (ix2 q k)
      = (m ((c : Thread nD τ).loc main_arg5) : FVec Ideal S128x64 .f32) (ix2 k q) := by
  have hw : win0_3.index t (0 : Fin 2) = 0 ∧ win0_3.index t (1 : Fin 2) = 0 := by
    obtain ⟨h0, h1, h2, h3, h4, h5, h6, h7, h8, h9, h10, h11, h12, h13, h14, -⟩ := idx_facts t
    exact ⟨h6, h7⟩
  unfold iblk
  rw [View.read_apply]
  show (V m c main_v17 : S64x128.Idx → EReal) _ = _
  have hemb : ((cfg0.win 3).blk t).view.emb (ix2 q k) = (ix2 q k : S64x128.Idx) := by
    refine funext fun a => Fin.ext ?_
    match a with
    | ⟨0, _⟩ => show win0_3.index t (0 : Fin 2) * 64 + 1 * q.val = q.val; rw [hw.1]; omega
    | ⟨1, _⟩ => show win0_3.index t (1 : Fin 2) * 128 + 1 * k.val = k.val; rw [hw.2]; omega
  rw [hemb]
  exact V_v17_apply m c q k

/-- Window 4 holds its whole array at every point: entry (q, k) is the weight's entry (k, q). -/
theorem iblk4_apply (c : Dev nD) (t : Fin cfg0.N) (q : Fin 64) (k : Fin 128) :
    (iblk m c 4 t : Vec Ideal S64x128 .bf16) (ix2 q k)
      = (m ((c : Thread nD τ).loc main_arg6) : FVec Ideal S128x64 .f32) (ix2 k q) := by
  have hw : win0_4.index t (0 : Fin 2) = 0 ∧ win0_4.index t (1 : Fin 2) = 0 := by
    obtain ⟨h0, h1, h2, h3, h4, h5, h6, h7, h8, h9, h10, h11, h12, h13, h14, -⟩ := idx_facts t
    exact ⟨h8, h9⟩
  unfold iblk
  rw [View.read_apply]
  show (V m c main_v19 : S64x128.Idx → EReal) _ = _
  have hemb : ((cfg0.win 4).blk t).view.emb (ix2 q k) = (ix2 q k : S64x128.Idx) := by
    refine funext fun a => Fin.ext ?_
    match a with
    | ⟨0, _⟩ => show win0_4.index t (0 : Fin 2) * 64 + 1 * q.val = q.val; rw [hw.1]; omega
    | ⟨1, _⟩ => show win0_4.index t (1 : Fin 2) * 128 + 1 * k.val = k.val; rw [hw.2]; omega
  rw [hemb]
  exact V_v19_apply m c q k

/-- Window 5 holds its whole array at every point: entry (q, k) is the weight's entry (k, q). -/
theorem iblk5_apply (c : Dev nD) (t : Fin cfg0.N) (q : Fin 64) (k : Fin 128) :
    (iblk m c 5 t : Vec Ideal S64x128 .bf16) (ix2 q k)
      = (m ((c : Thread nD τ).loc main_arg7) : FVec Ideal S128x64 .f32) (ix2 k q) := by
  have hw : win0_5.index t (0 : Fin 2) = 0 ∧ win0_5.index t (1 : Fin 2) = 0 := by
    obtain ⟨h0, h1, h2, h3, h4, h5, h6, h7, h8, h9, h10, h11, h12, h13, h14, -⟩ := idx_facts t
    exact ⟨h10, h11⟩
  unfold iblk
  rw [View.read_apply]
  show (V m c main_v21 : S64x128.Idx → EReal) _ = _
  have hemb : ((cfg0.win 5).blk t).view.emb (ix2 q k) = (ix2 q k : S64x128.Idx) := by
    refine funext fun a => Fin.ext ?_
    match a with
    | ⟨0, _⟩ => show win0_5.index t (0 : Fin 2) * 64 + 1 * q.val = q.val; rw [hw.1]; omega
    | ⟨1, _⟩ => show win0_5.index t (1 : Fin 2) * 128 + 1 * k.val = k.val; rw [hw.2]; omega
  rw [hemb]
  exact V_v21_apply m c q k

/-- Window 7 holds its whole array at every point: entry (q, k) is the weight's entry (k, q). -/
theorem iblk7_apply (c : Dev nD) (t : Fin cfg0.N) (q : Fin 128) (k : Fin 128) :
    (iblk m c 7 t : Vec Ideal S128x128 .bf16) (ix2 q k)
      = (m ((c : Thread nD τ).loc main_arg9) : FVec Ideal S128x128 .f32) (ix2 k q) := by
  have hw : win0_7.index t (0 : Fin 2) = 0 ∧ win0_7.index t (1 : Fin 2) = 0 := by
    obtain ⟨h0, h1, h2, h3, h4, h5, h6, h7, h8, h9, h10, h11, h12, h13, h14, -⟩ := idx_facts t
    exact ⟨h13, h14⟩
  unfold iblk
  rw [View.read_apply]
  show (V m c main_v23 : S128x128.Idx → EReal) _ = _
  have hemb : ((cfg0.win 7).blk t).view.emb (ix2 q k) = (ix2 q k : S128x128.Idx) := by
    refine funext fun a => Fin.ext ?_
    match a with
    | ⟨0, _⟩ => show win0_7.index t (0 : Fin 2) * 128 + 1 * q.val = q.val; rw [hw.1]; omega
    | ⟨1, _⟩ => show win0_7.index t (1 : Fin 2) * 128 + 1 * k.val = k.val; rw [hw.2]; omega
  rw [hemb]
  exact V_v23_apply m c q k

/-- Window 6 holds its whole 128-vector at every point. -/
theorem iblk6_apply (c : Dev nD) (t : Fin cfg0.N) (k : Fin 128) :
    (iblk m c 6 t : Vec Ideal S128 .f32) (ix1 k)
      = (m ((c : Thread nD τ).loc main_arg8) : FVec Ideal S128 .f32) (ix1 k) := by
  have hw : win0_6.index t (0 : Fin 1) = 0 := by
    obtain ⟨h0, h1, h2, h3, h4, h5, h6, h7, h8, h9, h10, h11, h12, h13, h14, h15, h16, h17, -⟩ := idx_facts t
    exact h12
  unfold iblk
  rw [View.read_apply]
  show V m c main_arg8 _ = _
  rw [V_main_arg8]
  refine congrArg _ (funext fun a => Fin.ext ?_)
  match a with
  | ⟨0, _⟩ => show win0_6.index t (0 : Fin 1) * 128 + 1 * k.val = k.val; rw [hw]; omega

/-- Window 8 holds its whole 128-vector at every point. -/
theorem iblk8_apply (c : Dev nD) (t : Fin cfg0.N) (k : Fin 128) :
    (iblk m c 8 t : Vec Ideal S128 .f32) (ix1 k)
      = (m ((c : Thread nD τ).loc main_arg10) : FVec Ideal S128 .f32) (ix1 k) := by
  have hw : win0_8.index t (0 : Fin 1) = 0 := by
    obtain ⟨h0, h1, h2, h3, h4, h5, h6, h7, h8, h9, h10, h11, h12, h13, h14, h15, h16, h17, -⟩ := idx_facts t
    exact h15
  unfold iblk
  rw [View.read_apply]
  show V m c main_arg10 _ = _
  rw [V_main_arg10]
  refine congrArg _ (funext fun a => Fin.ext ?_)
  match a with
  | ⟨0, _⟩ => show win0_8.index t (0 : Fin 1) * 128 + 1 * k.val = k.val; rw [hw]; omega

/-- Window 9 holds its whole 128-vector at every point. -/
theorem iblk9_apply (c : Dev nD) (t : Fin cfg0.N) (k : Fin 128) :
    (iblk m c 9 t : Vec Ideal S128 .f32) (ix1 k)
      = (m ((c : Thread nD τ).loc main_arg11) : FVec Ideal S128 .f32) (ix1 k) := by
  have hw : win0_9.index t (0 : Fin 1) = 0 := by
    obtain ⟨h0, h1, h2, h3, h4, h5, h6, h7, h8, h9, h10, h11, h12, h13, h14, h15, h16, h17, -⟩ := idx_facts t
    exact h16
  unfold iblk
  rw [View.read_apply]
  show V m c main_arg11 _ = _
  rw [V_main_arg11]
  refine congrArg _ (funext fun a => Fin.ext ?_)
  match a with
  | ⟨0, _⟩ => show win0_9.index t (0 : Fin 1) * 128 + 1 * k.val = k.val; rw [hw]; omega

/-- Window 10 holds its whole 128-vector at every point. -/
theorem iblk10_apply (c : Dev nD) (t : Fin cfg0.N) (k : Fin 128) :
    (iblk m c 10 t : Vec Ideal S128 .f32) (ix1 k)
      = (m ((c : Thread nD τ).loc main_arg12) : FVec Ideal S128 .f32) (ix1 k) := by
  have hw : win0_10.index t (0 : Fin 1) = 0 := by
    obtain ⟨h0, h1, h2, h3, h4, h5, h6, h7, h8, h9, h10, h11, h12, h13, h14, h15, h16, h17, -⟩ := idx_facts t
    exact h17
  unfold iblk
  rw [View.read_apply]
  show V m c main_arg12 _ = _
  rw [V_main_arg12]
  refine congrArg _ (funext fun a => Fin.ext ?_)
  match a with
  | ⟨0, _⟩ => show win0_10.index t (0 : Fin 1) * 128 + 1 * k.val = k.val; rw [hw]; omega

/-- The output block at point t: element (r, j) of the block is element (20000·t + r, j) of the result array. -/
theorem emb11 (t : Fin cfg0.N) (r : Fin 20000) (j : Fin 128) (e : Fin 1000000) (he : e.val = t.val * 20000 + r.val) :
    ((cfg0.win 11).blk t).view.emb (ix2 r j) = (ix2 e j : S1000000x128.Idx) := by
  obtain ⟨h0, h1, h2, h3, h4, h5, h6, h7, h8, h9, h10, h11, h12, h13, h14, h15, h16, h17, h18, h19⟩ := idx_facts t
  refine funext fun a => Fin.ext ?_
  match a with
  | ⟨0, _⟩ => show win0_11.index t (0 : Fin 2) * 20000 + 1 * r.val = e.val; rw [h18, he]; omega
  | ⟨1, _⟩ => show win0_11.index t (1 : Fin 2) * 128 + 1 * j.val = j.val; rw [h19]; omega

end Cert.KernelBlocks

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.BlockSide.lean ====
/-
  The output block of the edge network's kernel, entry by entry.

  The block is 20000 rows (edges) by 128 features. Before the normalisation its entry (r, j) is

      o(r, j) = Σ_k a(r, k) · W_o(k, j) + b_o(j),   a(r, k) = h(r, k) · logistic(h(r, k)),
      h(r, k) = (Σ_q e(r, q) · W_e(q, k) + Σ_q s(r, q) · W_s(q, k)) + (Σ_q d(r, q) · W_d(q, k) + b₁(k)),

  each matrix product being the plain one into the zero accumulator (over the extended reals a change of format is the
  identity, and a view to the same shape is the identity), each bias a row repeated over the 20000 rows. The
  normalisation centres row r by its mean μ(r) = (Σ_j o(r, j)) / 128 — a sum along the lanes kept as a column and
  repeated along the row —, scales by rsqrt(σ²(r) + ε) with σ²(r) = (Σ_j (o(r, j) − μ(r))²) / 128, then by γ(j), and
  shifts by β(j). That is the specification's row function at the block's row r: the weights enter transposed, the
  weight of output feature k and input q being entry (q, k).
-/
import proofs.«162868_j14027363189339_2_alg».proof.Proof.Gen.KernelIdeal.Value
import proofs.«162868_j14027363189339_2_alg».proof.Proof.Spec
import proofs.«162868_j14027363189339_2_alg».proof.Proof.LibPlainDot
import proofs.«162868_j14027363189339_2_alg».proof.Proof.LibKeepDims
import Idealize.ShloMosaic.PureOps.Ideal.Laws
import Idealize.ShloMosaic.Lib.ValueIdx
import Idealize.ShloMosaic.Lib.ValueLayout
import Idealize.ShloMosaic.Lib.Pipeline.Value
noncomputable section
open scoped BigOperators
namespace Cert.BlockSide
open Cert.KernelIdeal Cert.KernelIdeal.Gen Idealize.ShloMosaic Idealize.ShloMosaic.ValueIdx

/-- A bias row [128] viewed as [1,128] and repeated over the 20000 rows reads, at (r, j), the bias at j. -/
theorem bias_at (P : Vec Ideal S128 .f32) (r : Fin 20000) (j : Fin 128) :
    broadcastTo S20000x128 (shapeCast S1x128 P shapeCasts_S128_S1x128) broadcasts_S1x128_S20000x128 (ix2 r j) = P (ix1 j) :=
  (broadcastTo_1b_ab_apply _ _ r j).trans (shapeCast_a_1a_apply P _ 0 j)

/-- A plain matrix product into the zero accumulator, at entry (p, o), whatever the operands' formats. -/
theorem mm_at {n a b : ℕ} {φ₁ φ₂ : FTy} (L : FVec Ideal ⟨2, ![n, a]⟩ φ₁) (R : FVec Ideal ⟨2, ![a, b]⟩ φ₂)
    (p : Fin n) (o : Fin b) :
    matmul (F := Ideal) (DotDims.plain n a b) none L R (constant (F := Ideal) ⟨2, ![n, b]⟩ .f32 0x00000000#32) (ix2 p o)
      = ∑ k : Fin a, L (ix2 p k) * R (ix2 k o) :=
  (Ideal.matmul_constant_zero_apply (DotDims.plain n a b) none L R (ix2 p o)).trans
    (Cert.LibPlainDot.sum_contr L R p o)

/-- The sum along the lanes of a 20000×128 vector, at row r. -/
theorem lane_sum (X : FVec Ideal S20000x128 .f32) (r : Fin 20000) :
    multiReduction (F := Ideal) .add [1] S20000 X 0x00000000#32 reduces_S20000x128_S20000 (.inl rfl) rfl (ix1 r)
      = ∑ j : Fin 128, X (ix2 r j) := by
  refine (Ideal.multiReduction_add_single X 0x00000000#32 reduces_S20000x128_S20000 (.inl rfl) rfl (ix1 r)).trans ?_
  refine Finset.sum_congr rfl fun k _ => ?_
  exact congrArg X (funext fun a => Fin.ext (by match a with | ⟨0, _⟩ => rfl | ⟨1, _⟩ => rfl))

/-- The hidden layer of the block before the activation, as the body computes it: three products into the zero
    accumulator and the bias row, grouped (edge + source) + (destination + bias). -/
def hidVec (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) : FVec Ideal S20000x128 .f32 :=
  addf
    (addf
      (matmul (φ₁ := .bf16) (φ₂ := .bf16) dot_S20000x64_S64x128_S20000x128_1_0_0_1_n_n none (truncf .bf16 P0 bitsLt_bf16_f32)
        (shapeCast S64x128 P1 shapeCasts_S64x128_S64x128) (constant S20000x128 .f32 0x00000000#32))
      (matmul (φ₁ := .bf16) (φ₂ := .bf16) dot_S20000x64_S64x128_S20000x128_1_0_0_1_n_n none (shapeCast S20000x64 P2 shapeCasts_S20000x64_S20000x64)
        (shapeCast S64x128 P3 shapeCasts_S64x128_S64x128) (constant S20000x128 .f32 0x00000000#32)))
    (addf
      (matmul (φ₁ := .bf16) (φ₂ := .bf16) dot_S20000x64_S64x128_S20000x128_1_0_0_1_n_n none (shapeCast S20000x64 P4 shapeCasts_S20000x64_S20000x64)
        (shapeCast S64x128 P5 shapeCasts_S64x128_S64x128) (constant S20000x128 .f32 0x00000000#32))
      (broadcastTo S20000x128 (shapeCast S1x128 P6 shapeCasts_S128_S1x128) broadcasts_S1x128_S20000x128))

/-- The body's value before the normalisation is the projection of the activated hidden layer plus its bias row. -/
theorem pay2_eq (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) (P7 : Vec Ideal S128x128 .bf16) (P8 : Vec Ideal S128 .f32) :
    k0_pay2 (F := Ideal) P0 P1 P2 P3 P4 P5 P6 P7 P8
      = addf
          (matmul (φ₁ := .bf16) (φ₂ := .bf16) dot_S20000x128_S128x128_S20000x128_1_0_0_1_n_n none
            (truncf .bf16 (mulf (hidVec P0 P1 P2 P3 P4 P5 P6) (logistic (hidVec P0 P1 P2 P3 P4 P5 P6))) bitsLt_bf16_f32)
            (shapeCast S128x128 P7 shapeCasts_S128x128_S128x128) (constant S20000x128 .f32 0x00000000#32))
          (broadcastTo S20000x128 (shapeCast S1x128 P8 shapeCasts_S128_S1x128) broadcasts_S1x128_S20000x128) := rfl

/-- The two printed dimension-number records are the plain ones. -/
theorem dot64_eq : dot_S20000x64_S64x128_S20000x128_1_0_0_1_n_n = DotDims.plain 20000 64 128 := rfl
theorem dot128_eq : dot_S20000x128_S128x128_S20000x128_1_0_0_1_n_n = DotDims.plain 20000 128 128 := rfl

/-- The hidden layer at (r, k) is the specification's hidden row of the block's row r. -/
theorem hid_at (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) (r : Fin 20000) (k : Fin 128) :
    hidVec P0 P1 P2 P3 P4 P5 P6 (ix2 r k)
      = Cert.EdgeNet.hidRow (fun q => P0 (ix2 r q)) (fun q => P2 (ix2 r q)) (fun q => P4 (ix2 r q))
          (fun k q => P1 (ix2 q k)) (fun k q => P3 (ix2 q k)) (fun k q => P5 (ix2 q k)) (fun k => P6 (ix1 k)) k := by
  unfold hidVec Cert.EdgeNet.hidRow
  rw [dot64_eq]
  simp only [shapeCast_self]
  refine (addf_apply _ _ _).trans ?_
  refine congrArg₂ (· + ·) ((addf_apply _ _ _).trans (congrArg₂ (· + ·) ?_ ?_))
    ((addf_apply _ _ _).trans (congrArg₂ (· + ·) ?_ ?_))
  · exact mm_at _ _ r k
  · exact mm_at _ _ r k
  · exact mm_at _ _ r k
  · exact bias_at P6 r k

/-- The body's value before the normalisation, at (r, j), is the specification's projection of the activated hidden row
    of the block's row r. -/
theorem pre_at (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) (P7 : Vec Ideal S128x128 .bf16) (P8 : Vec Ideal S128 .f32)
    (r : Fin 20000) (j : Fin 128) :
    k0_pay2 (F := Ideal) P0 P1 P2 P3 P4 P5 P6 P7 P8 (ix2 r j)
      = Cert.EdgeNet.projRow
          (fun k => Cert.EdgeNet.silu (Cert.EdgeNet.hidRow (fun q => P0 (ix2 r q)) (fun q => P2 (ix2 r q))
            (fun q => P4 (ix2 r q)) (fun k q => P1 (ix2 q k)) (fun k q => P3 (ix2 q k)) (fun k q => P5 (ix2 q k))
            (fun k => P6 (ix1 k)) k))
          (fun j' k => P7 (ix2 k j')) (fun j' => P8 (ix1 j')) j := by
  rw [pay2_eq, dot128_eq]
  simp only [shapeCast_self]
  unfold Cert.EdgeNet.projRow
  refine (addf_apply _ _ _).trans ?_
  refine congrArg₂ (· + ·) ?_ (bias_at P8 r j)
  refine (mm_at (φ₁ := .bf16) (φ₂ := .bf16) _ _ r j).trans ?_
  refine Finset.sum_congr rfl fun k _ => ?_
  refine congrArg (· * P7 (ix2 k j)) ?_
  show hidVec P0 P1 P2 P3 P4 P5 P6 (ix2 r k) * Ideal.logistic (hidVec P0 P1 P2 P3 P4 P5 P6 (ix2 r k)) = _
  rw [hid_at]
  rfl

/-- The row means, kept as a column and repeated along the rows, as the body computes them. -/
def meanCol (X : FVec Ideal S20000x128 .f32) : FVec Ideal S20000x128 .f32 :=
  broadcastTo S20000x128
    (divf (F := Ideal) (φ := .f32)
      (shapeCast S20000x1
        (multiReduction (F := Ideal) .add [1] S20000 X 0x00000000#32 reduces_S20000x128_S20000 (.inl rfl) rfl)
        shapeCasts_S20000_S20000x1)
      (broadcast S20000x1 (Scalar.ofBits (F := Ideal) .f32 0x43000000#32)))
    broadcasts_S20000x1_S20000x128

/-- At (r, j') the repeated column of means is the mean of row r. -/
theorem meanCol_at (X : FVec Ideal S20000x128 .f32) (r : Fin 20000) (j' : Fin 128) :
    meanCol X (ix2 r j') = Cert.EdgeNet.rowMean (fun j => X (ix2 r j)) := by
  unfold meanCol Cert.EdgeNet.rowMean Cert.EdgeNet.c128
  refine (Cert.Lib.KeepDims.broadcastTo_a1_ab_apply _ _ r j').trans ?_
  refine (divf_apply _ _ _).trans ?_
  exact congrArg₂ Ideal.div ((Cert.Lib.KeepDims.shapeCast_a_a1_apply _ _ r 0).trans (lane_sum X r)) rfl

/-- The normalisation of a 20000×128 vector X with scale g and shift b, index by index, as the body's output block
    spells it: centred by the row mean, scaled by the reciprocal root of the row variance plus ε. -/
def normE (X : FVec Ideal S20000x128 .f32) (g b : Vec Ideal S128 .f32) : Vec Ideal S20000x128 .f32 := fun y =>
  ((X (Value.ix11_0 y) : EReal)
      - Ideal.div
          (multiReduction (F := Ideal) .add [1] S20000 X 0x00000000#32 reduces_S20000x128_S20000 (.inl rfl) rfl
            (Value.ix11_1 y))
          (Ideal.ofBits .f32 0x43000000#32))
    * Ideal.rsqrt
        (Ideal.div
            (multiReduction (F := Ideal) .add [1] S20000
              (mulf (subf X (meanCol X)) (subf X (meanCol X))) 0x00000000#32 reduces_S20000x128_S20000 (.inl rfl) rfl
              (Value.ix11_2 y))
            (Ideal.ofBits .f32 0x43000000#32)
          + Ideal.ofBits .f32 0x3727C5AC#32)
    * (g (Value.ix11_3 y) : EReal)
    + (b (Value.ix11_4 y) : EReal)

/-- The output block is that normalisation of the body's value before it. -/
theorem E11_eq (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) (P7 : Vec Ideal S128x128 .bf16) (P8 : Vec Ideal S128 .f32) (P9 P10 : Vec Ideal S128 .f32) :
    Value.E11 (F := Ideal) P0 P1 P2 P3 P4 P5 P6 P7 P8 P9 P10
      = normE (k0_pay2 (F := Ideal) P0 P1 P2 P3 P4 P5 P6 P7 P8) P9 P10 := rfl

/-- The five index functions of the output block at (r, j): the entry itself, its row (twice), its column (twice). -/
theorem i0 (r : Fin 20000) (j : Fin 128) : Value.ix11_0 (ix2 r j) = ix2 r j :=
  funext fun a => Fin.ext (by match a with | ⟨0, _⟩ => rfl | ⟨1, _⟩ => rfl)
theorem i1 (r : Fin 20000) (j : Fin 128) : Value.ix11_1 (ix2 r j) = ix1 r :=
  funext fun a => Fin.ext (by match a with | ⟨0, _⟩ => rfl)
theorem i2 (r : Fin 20000) (j : Fin 128) : Value.ix11_2 (ix2 r j) = ix1 r :=
  funext fun a => Fin.ext (by match a with | ⟨0, _⟩ => rfl)
theorem i3 (r : Fin 20000) (j : Fin 128) : Value.ix11_3 (ix2 r j) = ix1 j :=
  funext fun a => Fin.ext (by match a with | ⟨0, _⟩ => rfl)
theorem i4 (r : Fin 20000) (j : Fin 128) : Value.ix11_4 (ix2 r j) = ix1 j :=
  funext fun a => Fin.ext (by match a with | ⟨0, _⟩ => rfl)

/-- At (r, j) that normalisation is the specification's layer normalisation of row r at feature j. -/
theorem normE_at (X : FVec Ideal S20000x128 .f32) (g b : Vec Ideal S128 .f32) (r : Fin 20000) (j : Fin 128) :
    normE X g b (ix2 r j) = Cert.EdgeNet.layerNorm (fun j' => X (ix2 r j')) (g (ix1 j)) (b (ix1 j)) j := by
  have hv : (∑ j' : Fin 128, (mulf (subf X (meanCol X)) (subf X (meanCol X))) (ix2 r j'))
      = ∑ j' : Fin 128, (X (ix2 r j') - Cert.EdgeNet.rowMean (fun j => X (ix2 r j)))
          * (X (ix2 r j') - Cert.EdgeNet.rowMean (fun j => X (ix2 r j))) :=
    Finset.sum_congr rfl fun j' _ => by
      show (X (ix2 r j') - meanCol X (ix2 r j')) * (X (ix2 r j') - meanCol X (ix2 r j')) = _
      rw [meanCol_at]
  show ((X (Value.ix11_0 (ix2 r j)) : EReal) - Ideal.div (multiReduction (F := Ideal) .add [1] S20000 X 0x00000000#32 reduces_S20000x128_S20000 (.inl rfl) rfl (Value.ix11_1 (ix2 r j))) (Ideal.ofBits .f32 0x43000000#32))
      * Ideal.rsqrt (Ideal.div (multiReduction (F := Ideal) .add [1] S20000 (mulf (subf X (meanCol X)) (subf X (meanCol X))) 0x00000000#32 reduces_S20000x128_S20000 (.inl rfl) rfl (Value.ix11_2 (ix2 r j))) (Ideal.ofBits .f32 0x43000000#32) + Ideal.ofBits .f32 0x3727C5AC#32)
      * (g (Value.ix11_3 (ix2 r j)) : EReal) + (b (Value.ix11_4 (ix2 r j)) : EReal) = _
  rw [i0, i1, i2, i3, i4, lane_sum X r, lane_sum _ r, hv]
  rfl

/-- Entry (r, j) of the output block is the specification's row function of the block's loads at row r. -/
theorem block_out (P0 : Vec Ideal S20000x64 .f32) (P1 : Vec Ideal S64x128 .bf16) (P2 : Vec Ideal S20000x64 .bf16)
    (P3 : Vec Ideal S64x128 .bf16) (P4 : Vec Ideal S20000x64 .bf16) (P5 : Vec Ideal S64x128 .bf16)
    (P6 : Vec Ideal S128 .f32) (P7 : Vec Ideal S128x128 .bf16) (P8 P9 P10 : Vec Ideal S128 .f32)
    (r : Fin 20000) (j : Fin 128) :
    Cert.KernelIdeal.Value.E11 (F := Ideal) P0 P1 P2 P3 P4 P5 P6 P7 P8 P9 P10 (ix2 r j)
      = Cert.EdgeNet.edgeRowOut (fun q => P0 (ix2 r q)) (fun q => P2 (ix2 r q)) (fun q => P4 (ix2 r q))
          (fun k q => P1 (ix2 q k)) (fun k q => P3 (ix2 q k)) (fun k q => P5 (ix2 q k)) (fun k => P6 (ix1 k))
          (fun j' k => P7 (ix2 k j')) (fun j' => P8 (ix1 j')) (fun j' => P9 (ix1 j')) (fun j' => P10 (ix1 j')) j := by
  rw [E11_eq]
  refine (normE_at _ P9 P10 r j).trans ?_
  have hrow : (fun j' => k0_pay2 (F := Ideal) P0 P1 P2 P3 P4 P5 P6 P7 P8 (ix2 r j'))
      = Cert.EdgeNet.projRow
          (fun k => Cert.EdgeNet.silu (Cert.EdgeNet.hidRow (fun q => P0 (ix2 r q)) (fun q => P2 (ix2 r q))
            (fun q => P4 (ix2 r q)) (fun k q => P1 (ix2 q k)) (fun k q => P3 (ix2 q k)) (fun k q => P5 (ix2 q k))
            (fun k => P6 (ix1 k)) k))
          (fun j' k => P7 (ix2 k j')) (fun j' => P8 (ix1 j')) :=
    funext fun j' => pre_at P0 P1 P2 P3 P4 P5 P6 P7 P8 r j'
  rw [hrow]
  rfl

end Cert.BlockSide
end
-- ==== Proof.KernelValue.lean ====
/-
  The kernel's result array is the edge network of the specification.

  What the body leaves in the output's staging buffer at a grid point is one function of the eleven blocks it loads
  (the generated block function); read at an entry it is the specification's row function of those loads; each load
  is an entry of an argument array (the blocks are rows 20000·t … of the edge arrays, or whole weight arrays, and the
  host side's gathers and transposes are read through); so point t writes back rows 20000·t … 20000·t + 19999 of the
  specification's array. The 50 blocks cover all 1,000,000 rows, so after the run the result array is that array.
-/
import proofs.«162868_j14027363189339_2_alg».proof.Proof.Gen.KernelIdeal.Value
import proofs.«162868_j14027363189339_2_alg».proof.Proof.Spec
import proofs.«162868_j14027363189339_2_alg».proof.Proof.KernelHost
import proofs.«162868_j14027363189339_2_alg».proof.Proof.KernelBlocks
import proofs.«162868_j14027363189339_2_alg».proof.Proof.BlockSide
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelIdeal.Value Cert.KernelHost Cert.KernelBlocks

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- What the body leaves in the output's buffer, as the one block function of the eleven window blocks (each load
    takes its window's whole block). -/
theorem out_eq (x0 : Vec Ideal S20000x64 .f32) (x1 x2 : Vec Ideal S20000x64 .bf16) (x3 x4 x5 : Vec Ideal S64x128 .bf16)
    (x6 : Vec Ideal S128 .f32) (x7 : Vec Ideal S128x128 .bf16) (x8 x9 x10 : Vec Ideal S128 .f32) :
    out0_11 x0 x1 x2 x3 x4 x5 x6 x7 x8 x9 x10 = E11 (F := Ideal) x0 x3 x1 x4 x2 x5 x6 x7 x8 x9 x10 := by
  funext y
  unfold out0_11
  refine (canon11_eq _ _ _ _ _ _ _ _ _ _ _ y).trans ?_
  simp only [View.ld_unit_zero (S := S20000x64) hz2, View.ld_unit_zero (S := S64x128) hz2,
    View.ld_unit_zero (S := S128) hz1, View.ld_unit_zero (S := S128x128) hz2]

/-- The result array: the specification at the argument arrays, the two start-index columns as the host side makes them. -/
abbrev result (c : Dev nD) : FVec Ideal S1000000x128 .f32 :=
  Cert.EdgeNet.out (m ((c : Thread nD τ).loc main_arg0)) (m ((c : Thread nD τ).loc main_arg1)) (m ((c : Thread nD τ).loc main_arg2))
    (col (m ((c : Thread nD τ).loc main_arg3))) (col (m ((c : Thread nD τ).loc main_arg4)))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- At point t, entry y of the block the body leaves is the specification's entry under it in the result array. -/
theorem point_eq (c : Dev nD) (t : Fin cfg0.N) (y : S20000x128.Idx) :
    E11 (F := Ideal) (iblk m c 0 t) (iblk m c 3 t) (iblk m c 1 t) (iblk m c 4 t) (iblk m c 2 t) (iblk m c 5 t)
        (iblk m c 6 t) (iblk m c 7 t) (iblk m c 8 t) (iblk m c 9 t) (iblk m c 10 t) y
      = result m c (((cfg0.win 11).blk t).view.emb y) := by
  obtain ⟨r, j, rfl⟩ : ∃ (r : Fin 20000) (j : Fin 128), y = ix2 r j := ⟨y 0, y 1, eq_ix2 y⟩
  have ht : t.val < 50 := by have h := t.isLt; have hN : cfg0.N = 50 := N_0; omega
  obtain ⟨e, he⟩ : ∃ e : Fin 1000000, e.val = t.val * 20000 + r.val := ⟨⟨t.val * 20000 + r.val, by omega⟩, rfl⟩
  refine (Cert.BlockSide.block_out (iblk m c 0 t) (iblk m c 3 t) (iblk m c 1 t) (iblk m c 4 t) (iblk m c 2 t)
    (iblk m c 5 t) (iblk m c 6 t) (iblk m c 7 t) (iblk m c 8 t) (iblk m c 9 t) (iblk m c 10 t) r j).trans ?_
  refine Eq.trans ?_ (congrArg (result m c) (emb11 t r j e he)).symm
  refine Eq.trans ?_ (Cert.EdgeNet.out_apply _ _ _ _ _ _ _ _ _ _ _ _ _ e j).symm
  unfold Cert.EdgeNet.outAt
  congr 1
  · exact funext fun q => iblk0_apply m c t r q e he
  · exact funext fun q => iblk1_apply m c t r q e he
  · exact funext fun q => iblk2_apply m c t r q e he
  · exact funext fun k => funext fun q => iblk3_apply m c t q k
  · exact funext fun k => funext fun q => iblk4_apply m c t q k
  · exact funext fun k => funext fun q => iblk5_apply m c t q k
  · exact funext fun k => iblk6_apply m c t k
  · exact funext fun j' => funext fun k => iblk7_apply m c t k j'
  · exact funext fun j' => iblk8_apply m c t j'
  · exact funext fun j' => iblk9_apply m c t j'
  · exact funext fun j' => iblk10_apply m c t j'

/-- What point t writes back is block t of the result array. -/
theorem flushed_eq (c : Dev nD) (t : Fin cfg0.N) :
    (dats m 0 c).flushed 11 t = ((cfg0.win 11).blk t).view.read (Elt Ideal) (result m c) := by
  refine (flushed11 m c t).trans ?_
  refine (congrArg ((cfg0.win 11).cut (grid0.coords t)) (out_eq (iblk m c 0 t) (iblk m c 1 t) (iblk m c 2 t)
    (iblk m c 3 t) (iblk m c 4 t) (iblk m c 5 t) (iblk m c 6 t) (iblk m c 7 t) (iblk m c 8 t) (iblk m c 9 t)
    (iblk m c 10 t))).trans ?_
  funext y
  exact point_eq m c t y

/-- An index of the result array is in point t's block iff each coordinate is in the block's range on its axis. -/
theorem mem_blk (t : Fin cfg0.N) (i : S1000000x128.Idx) :
    i ∈ ((cfg0.win 11).blk t).view.set ↔ ∀ a : Fin 2, win0_11.index t a * S20000x128.size a ≤ (i a).val
      ∧ (i a).val < win0_11.index t a * S20000x128.size a + S20000x128.size a := by
  show i ∈ ((View.whole main_v24).slice (win0_11.rect t)).set ↔ _
  rw [View.set_slice_whole, Rect.mem_set_unit]
  exact Iff.rfl

/-- Every row of the result array lies in some point's block: row i in the block of point i / 20000. -/
theorem cover (i : S1000000x128.Idx) :
    ∃ t : Fin cfg0.N, (cfg0.win 11).flush t = true ∧ i ∈ ((cfg0.win 11).blk t).view.set := by
  have hi0 : (i 0).val < 1000000 := (i 0).isLt
  have hi1 : (i 1).val < 128 := (i 1).isLt
  have hN : cfg0.N = 50 := N_0
  obtain ⟨t, ht⟩ : ∃ t : Fin cfg0.N, t.val = (i 0).val / 20000 := ⟨⟨(i 0).val / 20000, by omega⟩, rfl⟩
  refine ⟨t, flush0_11 t, ?_⟩
  rw [mem_blk]
  obtain ⟨h0, h1, h2, h3, h4, h5, h6, h7, h8, h9, h10, h11, h12, h13, h14, h15, h16, h17, h18, h19⟩ := idx_facts t
  intro a
  match a with
  | ⟨0, _⟩ =>
    show win0_11.index t (0 : Fin 2) * 20000 ≤ (i 0).val ∧ (i 0).val < win0_11.index t (0 : Fin 2) * 20000 + 20000
    rw [h18, ht]; omega
  | ⟨1, _⟩ =>
    show win0_11.index t (1 : Fin 2) * 128 ≤ (i 1).val ∧ (i 1).val < win0_11.index t (1 : Fin 2) * 128 + 128
    rw [h19]; omega

/-- After the run the result array is the specification's array. -/
theorem final (c : Dev nD) : (dats m 0 c).arrAt 11 cfg0.N = result m c :=
  (dats m 0 c).arrAt_eq_of_cover 11 (result m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelValue

end
-- ==== Proof.RefSide.lean ====
import proofs.«162868_j14027363189339_2_alg».proof.Proof.Gen.ReferenceIdeal.Read
import proofs.«162868_j14027363189339_2_alg».proof.Proof.Spec
import proofs.«162868_j14027363189339_2_alg».proof.Proof.LibHostGather
import Idealize.ShloMosaic.PureOps.Ideal.Laws
import Idealize.ShloMosaic.Lib.ValueIdx
noncomputable section
open scoped BigOperators
namespace Cert.RefSide
open Cert.ReferenceIdeal Cert.ReferenceIdeal.Gen Cert.ReferenceIdeal.Read Idealize.ShloMosaic Idealize.ShloMosaic.ValueIdx

section Stages

variable (x0 : FVec Ideal S1000000x64 .f32) (x1 x2 : FVec Ideal S100000x64 .f32) (x3 x4 : IVec S1000000 32)
    (x5 x6 x7 : FVec Ideal S128x64 .f32) (x8 : FVec Ideal S128 .f32) (x9 : FVec Ideal S128x128 .f32)
    (x10 x11 x12 : FVec Ideal S128 .f32)

/-- The edge features against the transposed edge weights: entry (r, k) is the 64-term dot product of feature row r with weight row k. -/
theorem edge_dot (r : Fin 1000000) (k : Fin 128) :
    val_main_v1 (F := Ideal) x0 x5 (ix2 r k) = ∑ q : Fin 64, x0 (ix2 r q) * x5 (ix2 k q) := by
  refine (val_main_v1_apply x0 x5 (ix2 r k)).trans ?_
  refine Finset.sum_congr rfl fun q _ => ?_
  have hl : lidx_main_v1 (ix2 r k) q = ix2 r q := funext fun a => Fin.ext (by match a with | ⟨0, _⟩ => rfl | ⟨1, _⟩ => rfl)
  have hr : idx_main_v0 (ridx_main_v1 (ix2 r k) q) = ix2 k q := funext fun a => Fin.ext (by match a with | ⟨0, _⟩ => rfl | ⟨1, _⟩ => rfl)
  rw [val_main_v0_apply, hl, hr]

/-- The source-node table against its transposed weights, entry (r, k). -/
theorem src_dot (r : Fin 100000) (k : Fin 128) :
    val_main_v3 (F := Ideal) x1 x6 (ix2 r k) = ∑ q : Fin 64, x1 (ix2 r q) * x6 (ix2 k q) := by
  refine (val_main_v3_apply x1 x6 (ix2 r k)).trans ?_
  refine Finset.sum_congr rfl fun q _ => ?_
  have hl : lidx_main_v3 (ix2 r k) q = ix2 r q := funext fun a => Fin.ext (by match a with | ⟨0, _⟩ => rfl | ⟨1, _⟩ => rfl)
  have hr : idx_main_v2 (ridx_main_v3 (ix2 r k) q) = ix2 k q := funext fun a => Fin.ext (by match a with | ⟨0, _⟩ => rfl | ⟨1, _⟩ => rfl)
  rw [val_main_v2_apply, hl, hr]

/-- The destination-node table against its transposed weights, entry (r, k). -/
theorem dst_dot (r : Fin 100000) (k : Fin 128) :
    val_main_v5 (F := Ideal) x2 x7 (ix2 r k) = ∑ q : Fin 64, x2 (ix2 r q) * x7 (ix2 k q) := by
  refine (val_main_v5_apply x2 x7 (ix2 r k)).trans ?_
  refine Finset.sum_congr rfl fun q _ => ?_
  have hl : lidx_main_v5 (ix2 r k) q = ix2 r q := funext fun a => Fin.ext (by match a with | ⟨0, _⟩ => rfl | ⟨1, _⟩ => rfl)
  have hr : idx_main_v4 (ridx_main_v5 (ix2 r k) q) = ix2 k q := funext fun a => Fin.ext (by match a with | ⟨0, _⟩ => rfl | ⟨1, _⟩ => rfl)
  rw [val_main_v4_apply, hl, hr]

/-- The destination table's projection with the bias row added, entry (r, k). -/
theorem dst_bias (r : Fin 100000) (k : Fin 128) :
    val_main_v8 (F := Ideal) x2 x7 x8 (ix2 r k) = (∑ q : Fin 64, x2 (ix2 r q) * x7 (ix2 k q)) + x8 (ix1 k) := by
  have hb : idx_main_v6 (idx_main_v7 (ix2 r k)) = ix1 k := funext fun a => Fin.ext (by match a with | ⟨0, _⟩ => rfl)
  rw [val_main_v8_apply, Ideal.addf_def, dst_dot, val_main_v7_apply, val_main_v6_apply, hb]

/-- The source gather: row e of the result is the row of the projected source table that the start-index column names. -/
theorem gather_src (e : Fin 1000000) (k : Fin 128) :
    val_main_v15 (F := Ideal) x1 x3 x6 (ix2 e k)
      = val_main_v3 (F := Ideal) x1 x6 (ix2 (Cert.EdgeNet.nodeRow (val_main_v14 (F := Ideal) x3) e) k) := by
  unfold val_main_v15
  generalize val_main_v3 (F := Ideal) x1 x6 = t
  generalize val_main_v14 (F := Ideal) x3 = c
  show Host.gather (Cert.HostInt.rowGatherDims 100000 128 1000000 _) t c (ix2 e k) = _
  exact Cert.HostInt.gather_rows_apply (by decide) _ t c e k

/-- The destination gather, likewise. -/
theorem gather_dst (e : Fin 1000000) (k : Fin 128) :
    val_main_v23 (F := Ideal) x2 x4 x7 x8 (ix2 e k)
      = val_main_v8 (F := Ideal) x2 x7 x8 (ix2 (Cert.EdgeNet.nodeRow (val_main_v22 (F := Ideal) x4) e) k) := by
  unfold val_main_v23
  generalize val_main_v8 (F := Ideal) x2 x7 x8 = t
  generalize val_main_v22 (F := Ideal) x4 = c
  show Host.gather (Cert.HostInt.rowGatherDims 100000 128 1000000 _) t c (ix2 e k) = _
  exact Cert.HostInt.gather_rows_apply (by decide) _ t c e k

/-- The hidden row before the activation. -/
theorem hid_eq (e : Fin 1000000) (k : Fin 128) :
    val_main_v24 (F := Ideal) x0 x1 x2 x3 x4 x5 x6 x7 x8 (ix2 e k)
      = Cert.EdgeNet.hidRow (fun q => x0 (ix2 e q))
          (fun q => x1 (ix2 (Cert.EdgeNet.nodeRow (val_main_v14 (F := Ideal) x3) e) q))
          (fun q => x2 (ix2 (Cert.EdgeNet.nodeRow (val_main_v22 (F := Ideal) x4) e) q))
          (fun k q => x5 (ix2 k q)) (fun k q => x6 (ix2 k q)) (fun k q => x7 (ix2 k q)) (fun k => x8 (ix1 k)) k := by
  rw [val_main_v24_apply, val_main_v16_apply, Ideal.addf_def, Ideal.addf_def, edge_dot, gather_src, src_dot,
    gather_dst, dst_bias]
  rfl

/-- The activation: x times 1 / (1 + exp (−x)), both ones spelt by the word of 1.0. -/
theorem act_eq (i : S1000000x128.Idx) :
    val_main_v25 (F := Ideal) x0 x1 x2 x3 x4 x5 x6 x7 x8 i = Cert.EdgeNet.silu (val_main_v24 (F := Ideal) x0 x1 x2 x3 x4 x5 x6 x7 x8 i) := by
  rw [val_main_v25_apply, val_main_call0_v5_apply, val_main_call0_v4_apply, val_main_call0_cst_0_apply,
    val_main_call0_v3_apply, val_main_call0_v2_apply, val_main_call0_cst_apply, val_main_call0_v1_apply,
    val_main_call0_v0_apply]
  generalize val_main_v24 (F := Ideal) x0 x1 x2 x3 x4 x5 x6 x7 x8 i = h
  simp only [Ideal.mulf_def, Ideal.hostDivf_def, Ideal.addf_def, Ideal.hostUnary_exp_def, Ideal.hostNegf_def,
    Ideal.ofBits_def, Cert.EdgeNet.ofBits_one]
  rfl

/-- The output projection of the activated row, with its bias. -/
theorem proj_eq (e : Fin 1000000) (j : Fin 128) :
    val_main_v30 (F := Ideal) x0 x1 x2 x3 x4 x5 x6 x7 x8 x9 x10 (ix2 e j)
      = Cert.EdgeNet.projRow (fun k => val_main_v25 (F := Ideal) x0 x1 x2 x3 x4 x5 x6 x7 x8 (ix2 e k)) (fun j' k => x9 (ix2 j' k))
          (fun j' => x10 (ix1 j')) j := by
  have hb : idx_main_v28 (idx_main_v29 (ix2 e j)) = ix1 j := funext fun a => Fin.ext (by match a with | ⟨0, _⟩ => rfl)
  rw [val_main_v30_apply, Ideal.addf_def, val_main_v27_apply, val_main_v29_apply, val_main_v28_apply, hb]
  unfold Cert.EdgeNet.projRow
  refine congrArg (· + x10 (ix1 j)) ?_
  refine Finset.sum_congr rfl fun k _ => ?_
  have hl : lidx_main_v27 (ix2 e j) k = ix2 e k := funext fun a => Fin.ext (by match a with | ⟨0, _⟩ => rfl | ⟨1, _⟩ => rfl)
  have hr : idx_main_v26 (ridx_main_v27 (ix2 e j) k) = ix2 j k := funext fun a => Fin.ext (by match a with | ⟨0, _⟩ => rfl | ⟨1, _⟩ => rfl)
  rw [val_main_v26_apply, hl, hr]

/-- The row sum of the projected row (the sum starts from the zero word). -/
theorem rowsum_eq (e : Fin 1000000) :
    val_main_v31 (F := Ideal) x0 x1 x2 x3 x4 x5 x6 x7 x8 x9 x10 (ix1 e) = ∑ j' : Fin 128, val_main_v30 (F := Ideal) x0 x1 x2 x3 x4 x5 x6 x7 x8 x9 x10 (ix2 e j') := by
  refine (val_main_v31_apply x0 x1 x2 x3 x4 x5 x6 x7 x8 x9 x10 (ix1 e)).trans ?_
  rw [val_main_cst_apply, Ideal.ofBits_def, Ideal.ofBits_zero_f32, zero_add]
  refine Finset.sum_congr rfl fun k _ => ?_
  have hi : idx_main_v31 (ix1 e) k = ix2 e k := funext fun a => Fin.ext (by match a with | ⟨0, _⟩ => rfl | ⟨1, _⟩ => rfl)
  rw [hi]

/-- The row mean, kept as a column. -/
theorem mean_eq (e : Fin 1000000) (z : Fin 1) :
    val_main_v34 (F := Ideal) x0 x1 x2 x3 x4 x5 x6 x7 x8 x9 x10 (ix2 e z) = Cert.EdgeNet.rowMean (fun j' => val_main_v30 (F := Ideal) x0 x1 x2 x3 x4 x5 x6 x7 x8 x9 x10 (ix2 e j')) := by
  have hi : idx_main_v32 (ix2 e z) = ix1 e := funext fun a => Fin.ext (by match a with | ⟨0, _⟩ => rfl)
  rw [val_main_v34_apply, Ideal.hostDivf_def, val_main_v32_apply, hi, rowsum_eq, val_main_v33_apply,
    val_main_cst_3_apply, Ideal.ofBits_def]
  rfl

/-- The centred row (as the variance reads it). -/
theorem centred_eq (e : Fin 1000000) (j : Fin 128) :
    val_main_v36 (F := Ideal) x0 x1 x2 x3 x4 x5 x6 x7 x8 x9 x10 (ix2 e j) = val_main_v30 (F := Ideal) x0 x1 x2 x3 x4 x5 x6 x7 x8 x9 x10 (ix2 e j) - Cert.EdgeNet.rowMean (fun j' => val_main_v30 (F := Ideal) x0 x1 x2 x3 x4 x5 x6 x7 x8 x9 x10 (ix2 e j')) := by
  have hi : idx_main_v35 (ix2 e j) = ix2 e (⟨0, Nat.one_pos⟩ : Fin 1) := funext fun a => Fin.ext (by match a with | ⟨0, _⟩ => rfl | ⟨1, _⟩ => rfl)
  rw [val_main_v36_apply, Ideal.subf_def, val_main_v35_apply, hi, mean_eq]

/-- The centred row (as the normalisation reads it). -/
theorem centred_eq' (e : Fin 1000000) (j : Fin 128) :
    val_main_v43 (F := Ideal) x0 x1 x2 x3 x4 x5 x6 x7 x8 x9 x10 (ix2 e j) = val_main_v30 (F := Ideal) x0 x1 x2 x3 x4 x5 x6 x7 x8 x9 x10 (ix2 e j) - Cert.EdgeNet.rowMean (fun j' => val_main_v30 (F := Ideal) x0 x1 x2 x3 x4 x5 x6 x7 x8 x9 x10 (ix2 e j')) := by
  have hi : idx_main_v42 (ix2 e j) = ix2 e (⟨0, Nat.one_pos⟩ : Fin 1) := funext fun a => Fin.ext (by match a with | ⟨0, _⟩ => rfl | ⟨1, _⟩ => rfl)
  rw [val_main_v43_apply, Ideal.subf_def, val_main_v42_apply, hi, mean_eq]

/-- The sum of the squared centred entries. -/
theorem sqsum_eq (e : Fin 1000000) :
    val_main_v38 (F := Ideal) x0 x1 x2 x3 x4 x5 x6 x7 x8 x9 x10 (ix1 e)
      = ∑ j : Fin 128, (val_main_v30 (F := Ideal) x0 x1 x2 x3 x4 x5 x6 x7 x8 x9 x10 (ix2 e j) - Cert.EdgeNet.rowMean (fun j' => val_main_v30 (F := Ideal) x0 x1 x2 x3 x4 x5 x6 x7 x8 x9 x10 (ix2 e j')))
          * (val_main_v30 (F := Ideal) x0 x1 x2 x3 x4 x5 x6 x7 x8 x9 x10 (ix2 e j) - Cert.EdgeNet.rowMean (fun j' => val_main_v30 (F := Ideal) x0 x1 x2 x3 x4 x5 x6 x7 x8 x9 x10 (ix2 e j'))) := by
  refine (val_main_v38_apply x0 x1 x2 x3 x4 x5 x6 x7 x8 x9 x10 (ix1 e)).trans ?_
  rw [val_main_cst_4_apply, Ideal.ofBits_def, Ideal.ofBits_zero_f32, zero_add]
  refine Finset.sum_congr rfl fun k _ => ?_
  have hi : idx_main_v38 (ix1 e) k = ix2 e k := funext fun a => Fin.ext (by match a with | ⟨0, _⟩ => rfl | ⟨1, _⟩ => rfl)
  rw [hi, val_main_v37_apply, Ideal.mulf_def, centred_eq]

/-- The row variance, kept as a column. -/
theorem var_eq (e : Fin 1000000) (z : Fin 1) :
    val_main_v41 (F := Ideal) x0 x1 x2 x3 x4 x5 x6 x7 x8 x9 x10 (ix2 e z) = Cert.EdgeNet.rowVar (fun j' => val_main_v30 (F := Ideal) x0 x1 x2 x3 x4 x5 x6 x7 x8 x9 x10 (ix2 e j')) := by
  have hi : idx_main_v39 (ix2 e z) = ix1 e := funext fun a => Fin.ext (by match a with | ⟨0, _⟩ => rfl)
  rw [val_main_v41_apply, Ideal.hostDivf_def, val_main_v39_apply, hi, sqsum_eq, val_main_v40_apply,
    val_main_cst_5_apply, Ideal.ofBits_def]
  rfl

/-- The reciprocal square root of the variance plus ε. -/
theorem scale_eq (e : Fin 1000000) (z : Fin 1) :
    val_main_v46 (F := Ideal) x0 x1 x2 x3 x4 x5 x6 x7 x8 x9 x10 (ix2 e z) = Ideal.rsqrt (Cert.EdgeNet.rowVar (fun j' => val_main_v30 (F := Ideal) x0 x1 x2 x3 x4 x5 x6 x7 x8 x9 x10 (ix2 e j')) + Cert.EdgeNet.eps) := by
  rw [val_main_v46_apply, Ideal.hostUnary_rsqrt_def, val_main_v45_apply, Ideal.addf_def, var_eq, val_main_v44_apply,
    val_main_cst_6_apply, Ideal.ofBits_def]
  rfl

/-- The normalised, scaled and shifted entry is the layer normalisation of the projected row. -/
theorem ln_eq (e : Fin 1000000) (j : Fin 128) :
    val_main_v54 (F := Ideal) x0 x1 x2 x3 x4 x5 x6 x7 x8 x9 x10 x11 x12 (ix2 e j)
      = Cert.EdgeNet.layerNorm (fun j' => val_main_v30 (F := Ideal) x0 x1 x2 x3 x4 x5 x6 x7 x8 x9 x10 (ix2 e j')) (x11 (ix1 j)) (x12 (ix1 j)) j := by
  have h47 : idx_main_v47 (ix2 e j) = ix2 e (⟨0, Nat.one_pos⟩ : Fin 1) := funext fun a => Fin.ext (by match a with | ⟨0, _⟩ => rfl | ⟨1, _⟩ => rfl)
  have h50 : idx_main_v49 (idx_main_v50 (ix2 e j)) = ix1 j := funext fun a => Fin.ext (by match a with | ⟨0, _⟩ => rfl)
  have h53 : idx_main_v52 (idx_main_v53 (ix2 e j)) = ix1 j := funext fun a => Fin.ext (by match a with | ⟨0, _⟩ => rfl)
  rw [val_main_v54_apply, Ideal.addf_def, val_main_v51_apply, Ideal.mulf_def, val_main_v48_apply, Ideal.mulf_def,
    centred_eq', val_main_v47_apply, h47, scale_eq, val_main_v50_apply, val_main_v49_apply, h50, val_main_v53_apply,
    val_main_v52_apply, h53]
  rfl

end Stages

/-- The reference program's result array is the edge network of the specification, the two start-index columns carried as they are. -/
theorem ref_out (x0 : FVec Ideal S1000000x64 .f32) (x1 x2 : FVec Ideal S100000x64 .f32) (x3 x4 : IVec S1000000 32)
    (x5 x6 x7 : FVec Ideal S128x64 .f32) (x8 : FVec Ideal S128 .f32) (x9 : FVec Ideal S128x128 .f32)
    (x10 x11 x12 : FVec Ideal S128 .f32) :
    val_main_v54 (F := Ideal) x0 x1 x2 x3 x4 x5 x6 x7 x8 x9 x10 x11 x12
      = Cert.EdgeNet.out x0 x1 x2 (val_main_v14 (F := Ideal) x3) (val_main_v22 (F := Ideal) x4) x5 x6 x7 x8 x9 x10 x11 x12 := by
  funext i
  obtain ⟨e, j, rfl⟩ : ∃ (e : Fin 1000000) (j : Fin 128), i = ix2 e j := ⟨i 0, i 1, eq_ix2 i⟩
  have ho : (fun j' => val_main_v30 (F := Ideal) x0 x1 x2 x3 x4 x5 x6 x7 x8 x9 x10 (ix2 e j'))
      = Cert.EdgeNet.projRow (fun k => Cert.EdgeNet.silu (Cert.EdgeNet.hidRow (fun q => x0 (ix2 e q))
          (fun q => x1 (ix2 (Cert.EdgeNet.nodeRow (val_main_v14 (F := Ideal) x3) e) q))
          (fun q => x2 (ix2 (Cert.EdgeNet.nodeRow (val_main_v22 (F := Ideal) x4) e) q))
          (fun k q => x5 (ix2 k q)) (fun k q => x6 (ix2 k q)) (fun k q => x7 (ix2 k q)) (fun k => x8 (ix1 k)) k))
          (fun j' k => x9 (ix2 j' k)) (fun j' => x10 (ix1 j')) := by
    funext j'
    refine (proj_eq x0 x1 x2 x3 x4 x5 x6 x7 x8 x9 x10 e j').trans ?_
    refine congrArg (fun a => Cert.EdgeNet.projRow a (fun j' k => x9 (ix2 j' k)) (fun j' => x10 (ix1 j')) j') ?_
    funext k
    rw [act_eq, hid_eq]
  rw [Cert.EdgeNet.out_apply, ln_eq, ho]
  rfl

end Cert.RefSide
end
-- ==== Proof.lean ====
/-
  The certificate of an edge network — a three-block linear layer over an edge's own features and the features of its
  source and destination nodes, x · logistic(x), an output projection and a layer normalisation over the 128 output
  features — computed by a kernel over 50 blocks of 20,000 edges against a whole-array reference.

  The kernel gathers the RAW node rows on the host side (narrowed to bf16, which changes nothing on the extended
  reals) and multiplies each gathered row by its weight block inside the body; the reference multiplies the whole
  node tables first and gathers rows of the products. Entry by entry the two are the same 64-term dot product of the
  node row that the edge names with the weight row: a gather of rows commutes with a product taken row by row. The
  normalisation of an index (a negative index wraps by the table's length) and the gather's clamping are the same
  operations on both sides and are carried as one column of start indices, never opened. Everything after the hidden
  row — the activation (the kernel's logistic is by definition the reference's 1 / (1 + exp(−x))), the projection,
  the mean and variance as sums over 128 divided by 128, the reciprocal square root with the same ε, the scale and the
  shift — is the same expression in the same order on both sides, so no law of the extended reals beyond reading the
  two programs at an entry is needed, and the finiteness of the inputs is never used.

  The three frames are the generated runs. The idealization rewrote nothing, so that conjunct is trivial. The value
  conjunct states both runs' result arrays as the one array of the specification (Proof/Spec.lean): the kernel's through
  its block function read at an entry (Proof/BlockSide.lean), the blocks as rows of the arguments (Proof/KernelHost.lean,
  Proof/KernelBlocks.lean) and the cover of the array by the 50 blocks (Proof/KernelValue.lean); the reference's through
  its operations read one at a time (Proof/RefSide.lean).
-/
import proofs.«162868_j14027363189339_2_alg».proof.Defs
import proofs.«162868_j14027363189339_2_alg».proof.Proof.Gen.Kernel
import proofs.«162868_j14027363189339_2_alg».proof.Proof.Gen.Kernel.Frame
import proofs.«162868_j14027363189339_2_alg».proof.Proof.Gen.KernelIdeal
import proofs.«162868_j14027363189339_2_alg».proof.Proof.Gen.KernelIdeal.Frame
import proofs.«162868_j14027363189339_2_alg».proof.Proof.Gen.KernelIdeal.Value
import proofs.«162868_j14027363189339_2_alg».proof.Proof.Gen.ReferenceIdeal
import proofs.«162868_j14027363189339_2_alg».proof.Proof.Gen.ReferenceIdeal.Run
import proofs.«162868_j14027363189339_2_alg».proof.Proof.Gen.ReferenceIdeal.Read
import proofs.«162868_j14027363189339_2_alg».proof.Proof.Gen.Pre_finite_inputs
import proofs.«162868_j14027363189339_2_alg».proof.Proof.Spec
import proofs.«162868_j14027363189339_2_alg».proof.Proof.KernelHost
import proofs.«162868_j14027363189339_2_alg».proof.Proof.KernelValue
import proofs.«162868_j14027363189339_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs make the start-index column of an index vector by the same operations. -/
theorem col_src (x : IVec Cert.ReferenceIdeal.S1000000 32) :
    Cert.ReferenceIdeal.Read.val_main_v14 (F := Ideal) x = Cert.KernelHost.col x := rfl

theorem col_dst (x : IVec Cert.ReferenceIdeal.S1000000 32) :
    Cert.ReferenceIdeal.Read.val_main_v22 (F := Ideal) x = Cert.KernelHost.col x := rfl

/-- Both programs, run from memories that agree on the arguments, end with the specification's array. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  refine (Cert.ReferenceIdeal.Read.val_main_v54_eq m' c).trans ?_
  rw [a0, a1, a2, a3, a4, a5, a6, a7, a8, a9, a10, a11, a12]
  refine (Cert.RefSide.ref_out _ _ _ _ _ _ _ _ _ _ _ _ _).trans ?_
  rw [col_src, col_dst]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
